-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S1600000 32) (main_arg2 : IVec S1600000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S10000x128 : Shape := ⟨2, ![10000, 128]⟩

abbrev nBuf : Space → Nat
  | .hbm => 24
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S100000x128, .bf16⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .bf16⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S128x128, .f32⟩
  | .hbm, ⟨21, _⟩ => ⟨S128x128, .bf16⟩
  | .hbm, ⟨22, _⟩ => ⟨S1x128, .f32⟩
  | .hbm, ⟨23, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .bf16⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v11) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S128x128, .f32⟩
  | .hbm, ⟨19, _⟩ => ⟨S100000x128, .f32⟩
  | .hbm, ⟨20, _⟩ => ⟨S1x128, .f32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.Spec.lean ====
/-
  The node update of a message-passing layer, as one function of its three arrays.

  Given the aggregated features `agg` (one row of 128 numbers per node), the transposed weight matrix `wt`
  (so that `wt (k, q) = W (q, k)`) and the bias `bias`, the layer's result at node `r` and output feature `q` is

      max ( Σ_k agg (r, k) · wt (k, q) + bias q , 0 ).

  Everything is read on the extended reals.  The sum, the addition and the maximum are kept as the operations of
  the ideal float instance themselves, so the zero of the maximum is the float word 0x00000000 read there and is
  never evaluated: both programs spell it with the same word.
-/
import proofs.«116294_j61418032333373_2_alg».proof.Proof.LibMatmul

noncomputable section

open scoped BigOperators

namespace Cert.NodeUpdate

open Idealize.ShloMosaic Idealize.ShloMosaic.ValueIdx

/-- One entry of the result from the row-by-column sum `s` and the bias entry `bq`: `max (s + bq) 0`. -/
def entry (s bq : EReal) : EReal :=
  FloatOps.maximumf (F := Ideal) (φ := .f32) (FloatOps.addf (F := Ideal) (φ := .f32) s bq)
    (FloatOps.ofBits (F := Ideal) .f32 0x00000000#32)

/-- The whole result: at (r, q), `entry` of row r of `agg` against column q of `wt`, and `bias q`. -/
def nodeUpdate (agg : (⟨2, ![100000, 128]⟩ : Shape).Idx → EReal) (wt : (⟨2, ![128, 128]⟩ : Shape).Idx → EReal)
    (bias : Fin 128 → EReal) : (⟨2, ![100000, 128]⟩ : Shape).Idx → EReal :=
  fun i => entry (Cert.LibMatmul.MM agg wt i) (bias (i 1))

theorem nodeUpdate_apply (agg : (⟨2, ![100000, 128]⟩ : Shape).Idx → EReal) (wt : (⟨2, ![128, 128]⟩ : Shape).Idx → EReal)
    (bias : Fin 128 → EReal) (r : Fin 100000) (q : Fin 128) :
    nodeUpdate agg wt bias (ix2 r q) = entry (∑ k : Fin 128, agg (ix2 r k) * wt (ix2 k q)) (bias q) := rfl

end Cert.NodeUpdate

end
-- ==== Proof.Body.lean ====
/-
  The kernel body's one stored value, read at an index, at the ideal values.

  The body loads a block `x0` of 10000 rows of aggregated features, the whole 128 × 128 matrix `x1` and the
  1 × 128 bias row `x2`; it stores  max (x0 · x1 + x2, 0).  A change of float format is the identity on the
  extended reals, a reshape to the same shape is the identity, a matrix product into the zero accumulator is the
  plain sum of products, and the bias row repeated down the block reads its entry in column q.  So at (p, q) the
  stored value is `entry (Σ_k x0 (p, k) · x1 (k, q)) (x2 (0, q))`.
-/
import proofs.«116294_j61418032333373_2_alg».proof.Proof.Gen.KernelIdeal.Skeleton
import proofs.«116294_j61418032333373_2_alg».proof.Proof.LibMatmul
import proofs.«116294_j61418032333373_2_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.NodeUpdate

/-- The stored value at row p and column q of the block. -/
theorem stored_apply (x0 : Vec Ideal S10000x128 .f32) (x1 : Vec Ideal S128x128 .bf16) (x2 : Vec Ideal S1x128 .f32)
    (p : Fin 10000) (q : Fin 128) :
    k0_pay1 (F := Ideal) x0 x1 x2 (ix2 p q)
      = entry (∑ k : Fin 128, x0 (ix2 p k) * x1 (ix2 k q)) (x2 (ix2 (0 : Fin 1) q)) := by
  unfold k0_pay1
  rw [shapeCast_self, shapeCast_self, shapeCast_self]
  show entry (FloatOps.matmul (F := Ideal) dot_S10000x128_S128x128_S10000x128_1_0_0_1_n_n none x0 x1
        (constant S10000x128 .f32 0x00000000#32) (ix2 p q))
      (broadcastTo S10000x128 x2 broadcasts_S1x128_S10000x128 (ix2 p q)) = _
  have hm : FloatOps.matmul (F := Ideal) dot_S10000x128_S128x128_S10000x128_1_0_0_1_n_n none x0 x1
        (constant S10000x128 .f32 0x00000000#32) (ix2 p q) = ∑ k : Fin 128, x0 (ix2 p k) * x1 (ix2 k q) :=
    congrFun (Cert.LibMatmul.matmul_zero_eq dot_S10000x128_S128x128_S10000x128_1_0_0_1_n_n rfl rfl rfl rfl rfl rfl
      (φ₁ := .f32) (φ₂ := .bf16) none x0 x1) (ix2 p q)
  have hb : broadcastTo S10000x128 x2 broadcasts_S1x128_S10000x128 (ix2 p q) = x2 (ix2 (0 : Fin 1) q) :=
    broadcastTo_1b_ab_apply x2 broadcasts_S1x128_S10000x128 p q
  exact congrArg₂ entry hm hb

end Cert.KernelIdeal.Body

end
-- ==== Proof.Blocks.lean ====
/-
  From the blocks to the whole array.

  The kernel runs over ten grid points; point t reads rows 10000·t … 10000·t + 9999 of the aggregated features,
  the whole transposed-weight matrix and the whole bias row, and writes the same rows of the result.  So what
  point t writes back is the restriction, to those rows, of ONE function of the three arrays as the kernel finds
  them: the node update.  The ten row ranges cover all 100000 rows (row r lies in the range of point r / 10000),
  hence after the run the result array is that function everywhere.
-/
import proofs.«116294_j61418032333373_2_alg».proof.Proof.Gen.KernelIdeal.Value
import proofs.«116294_j61418032333373_2_alg».proof.Proof.Body
import proofs.«116294_j61418032333373_2_alg».proof.Proof.Spec

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.NodeUpdate
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block indices over the grid: the features and the result move together down the rows, one block per
    point; the weights and the bias stay at their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block is row 10000·t + p of the array. -/
def rowOf (t : Fin cfg0.N) (p : Fin 10000) : Fin 100000 :=
  ⟨t.val * 10000 + p.val, by have ht : t.val < 10 := t.isLt; have hp := p.isLt; omega⟩

/-! ## Each window's block at point t, read off ANY array of the window's shape -/

/-- The features' block at point t, at (p, k), is the array at row 10000·t + p, column k. -/
theorem features_read (t : Fin cfg0.N) (A : (⟨S100000x128, .f32⟩ : BufTy).Contents (Elt Ideal)) (p : Fin 10000) (k : Fin 128) :
    ((cfg0.win 0).blk t).view.read (Elt Ideal) A (ix2 p k) = A (ix2 (rowOf t p) k) := by
  obtain ⟨e0, e1, -⟩ := block_indices t
  show A (((cfg0.win 0).blk t).view.emb (ix2 p k)) = A (ix2 (rowOf t p) k)
  refine congrArg A (funext fun a => Fin.ext ?_)
  match a with
  | ⟨0, _⟩ => show win0_0.index t (0 : Fin 2) * 10000 + 1 * p.val = t.val * 10000 + p.val; omega
  | ⟨1, _⟩ => show win0_0.index t (1 : Fin 2) * 128 + 1 * k.val = k.val; omega

/-- The weights' block at any point is the whole matrix. -/
theorem weights_read (t : Fin cfg0.N) (A : (⟨S128x128, .bf16⟩ : BufTy).Contents (Elt Ideal)) (k q : Fin 128) :
    ((cfg0.win 1).blk t).view.read (Elt Ideal) A (ix2 k q) = A (ix2 k q) := by
  obtain ⟨-, -, e0, e1, -⟩ := block_indices t
  show A (((cfg0.win 1).blk t).view.emb (ix2 k q)) = A (ix2 k q)
  refine congrArg A (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias' block at any point is the whole row. -/
theorem bias_read (t : Fin cfg0.N) (A : (⟨S1x128, .f32⟩ : BufTy).Contents (Elt Ideal)) (q : Fin 128) :
    ((cfg0.win 2).blk t).view.read (Elt Ideal) A (ix2 (0 : Fin 1) q) = A (ix2 (0 : Fin 1) q) := by
  obtain ⟨-, -, -, -, e0, e1, -⟩ := block_indices t
  show A (((cfg0.win 2).blk t).view.emb (ix2 (0 : Fin 1) q)) = A (ix2 (0 : Fin 1) q)
  refine congrArg A (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- Where point t's result block sits in the array. -/
theorem result_block_emb (t : Fin cfg0.N) (p : Fin 10000) (q : Fin 128) :
    ((cfg0.win 3).blk t).view.emb (ix2 p q) = ix2 (rowOf t p) q := by
  obtain ⟨-, -, -, -, -, -, e0, e1⟩ := block_indices t
  refine funext fun a => Fin.ext ?_
  match a with
  | ⟨0, _⟩ => show win0_3.index t (0 : Fin 2) * 10000 + 1 * p.val = t.val * 10000 + p.val; omega
  | ⟨1, _⟩ => show win0_3.index t (1 : Fin 2) * 128 + 1 * q.val = q.val; omega

/-- What the body leaves at point t, of the blocks of ANY three arrays, is the block of their node update. -/
theorem point_writes (t : Fin cfg0.N) (A0 : (⟨S100000x128, .f32⟩ : BufTy).Contents (Elt Ideal))
    (A1 : (⟨S128x128, .bf16⟩ : BufTy).Contents (Elt Ideal)) (A2 : (⟨S1x128, .f32⟩ : BufTy).Contents (Elt Ideal)) :
    (cfg0.win 3).cut (grid0.coords t)
        (out0_3 (((cfg0.win 0).blk t).view.read (Elt Ideal) A0) (((cfg0.win 1).blk t).view.read (Elt Ideal) A1)
          (((cfg0.win 2).blk t).view.read (Elt Ideal) A2))
      = ((cfg0.win 3).blk t).view.read (Elt Ideal) (nodeUpdate A0 A1 (fun q => A2 (ix2 (0 : Fin 1) q))) := by
  unfold out0_3
  rw [View.canon_unit_zero origin]
  simp only [View.ld_unit_zero (S := S10000x128) origin, View.ld_unit_zero (S := S128x128) origin,
    View.ld_unit_zero (S := S1x128) origin]
  funext y
  obtain ⟨p, q, rfl⟩ : ∃ (p : Fin 10000) (q : Fin 128), y = ix2 p q := ⟨y 0, y 1, eq_ix2 y⟩
  show k0_pay1 (F := Ideal) (((cfg0.win 0).blk t).view.read (Elt Ideal) A0) (((cfg0.win 1).blk t).view.read (Elt Ideal) A1)
      (((cfg0.win 2).blk t).view.read (Elt Ideal) A2) (ix2 p q)
    = nodeUpdate A0 A1 (fun q => A2 (ix2 (0 : Fin 1) q)) (((cfg0.win 3).blk t).view.emb (ix2 p q))
  rw [result_block_emb t p q, nodeUpdate_apply]
  refine (Cert.KernelIdeal.Body.stored_apply _ _ _ p q).trans ?_
  refine congrArg₂ entry (Finset.sum_congr rfl fun k _ => ?_) (bias_read t A2 q)
  exact congrArg₂ (· * ·) (features_read t A0 p k) (weights_read t A1 k q)

/-! ## The run's result array -/

/-- The node update of the three arrays the kernel's windows stage, as the kernel finds them. -/
def whole (c : Dev nD) : (⟨S100000x128, .f32⟩ : BufTy).Contents (Elt Ideal) :=
  nodeUpdate (V m c (Pipeline.arrRef spec0 0)) (V m c (Pipeline.arrRef spec0 1))
    (fun q => V m c (Pipeline.arrRef spec0 2) (ix2 (0 : Fin 1) q))

/-- What point t writes back is its block of the node update of the whole arrays. -/
theorem flushed_eq (c : Dev nD) (t : Fin cfg0.N) :
    (dats m 0 c).flushed 3 t = ((cfg0.win 3).blk t).view.read (Elt Ideal) (whole m c) := by
  rw [Cert.KernelIdeal.Value.flushed3]
  exact point_writes t (V m c (Pipeline.arrRef spec0 0)) (V m c (Pipeline.arrRef spec0 1)) (V m c (Pipeline.arrRef spec0 2))

/-- An index of the result array is in point t's block iff each coordinate is in the block's range. -/
theorem mem_block (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v15).slice (win0_3.rect t)).set ↔ _
  rw [View.set_slice_whole, Rect.mem_set_unit]
  exact Iff.rfl

/-- The point whose block holds row r: r / 10000. -/
def pointOf (i : S100000x128.Idx) : Fin cfg0.N :=
  ⟨(i 0).val / 10000, by have h : (i 0).val < 100000 := (i 0).isLt; show _ < 10; omega⟩

/-- Every index of the result array is in some point's block. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨-, -, -, -, -, -, e0, e1⟩ := block_indices (pointOf i)
  have hv : (pointOf i).val = (i 0).val / 10000 := rfl
  refine ⟨pointOf i, flush0_3 _, ?_⟩
  rw [mem_block]
  intro a
  match a with
  | ⟨0, _⟩ =>
    show win0_3.index (pointOf i) (0 : Fin 2) * 10000 ≤ (i 0).val ∧ (i 0).val < win0_3.index (pointOf i) (0 : Fin 2) * 10000 + 10000
    omega
  | ⟨1, _⟩ =>
    show win0_3.index (pointOf i) (1 : Fin 2) * 128 ≤ (i 1).val ∧ (i 1).val < win0_3.index (pointOf i) (1 : Fin 2) * 128 + 128
    omega

/-- After the run the result array is the node update of the staged arrays, everywhere. -/
theorem result_array (c : Dev nD) : (dats m 0 c).arrAt 3 cfg0.N = whole m c :=
  (dats m 0 c).arrAt_eq_of_cover 3 (whole m c) (fun t _ => flushed_eq m c t) covered

end Cert.KernelIdeal.Blocks

end
-- ==== Proof.Found.lean ====
/-
  What the kernel's three staged arrays hold when the kernel starts.

  Before the kernel runs, the program gathers the source node's feature row along every edge and sums the rows
  into the edge's destination node (the aggregation), transposes the weight matrix, and lays the bias out as a
  1 × 128 row.  Two changes of float format sit around the gather and one after the transpose; on the extended
  reals each is the identity.
-/
import proofs.«116294_j61418032333373_2_alg».proof.Proof.Gen.KernelIdeal.Frame
import Idealize.ShloMosaic.Lib.StableHlo.Run
import Idealize.ShloMosaic.PureOps.Ideal.Laws

noncomputable section

namespace Cert.KernelIdeal.Found

open Cert.KernelIdeal Cert.KernelIdeal.Gen Idealize.ShloMosaic Idealize.ShloMosaic.TcCoe Idealize.SL.Sem Idealize.ShloMosaic.StableHlo

/-- The edge's source index as the gather reads it: a negative index counted from the end. -/
def sourceIndex (x1 : (⟨S1600000, .i32⟩ : BufTy).Contents (Elt Ideal)) : (⟨S1600000x1, .i32⟩ : BufTy).Contents (Elt Ideal) :=
  broadcastInDim S1600000x1 ![0] bcast_S1600000_S1600000x1_0
    (select (cmpi .slt x1 (broadcastInDim S1600000 ![] bcast_S_S1600000 (constantI S_ 32 0#32)))
      (addi x1 (broadcastInDim S1600000 ![] bcast_S_S1600000 (constantI S_ 32 100000#32))) x1)

/-- The aggregation as this program spells it: the gathered rows, through two changes of format, summed into
    their destination rows from the zero array. -/
def aggregated (x0 : (⟨S100000x128, .f32⟩ : BufTy).Contents (Elt Ideal)) (x1 x2 : (⟨S1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 x2)
    (extf .f32 (Host.gather gather_S100000x128_S1600000x1_S1600000x128_1_0_n_n_0_1_1128 (truncf .bf16 x0 bitsLt_bf16_f32)
      (sourceIndex x1)) bitsLt_bf16_f32)

/-- The weights as the kernel stages them: transposed, then through one change of format. -/
def weightsT (x3 : (⟨S128x128, .f32⟩ : BufTy).Contents (Elt Ideal)) : (⟨S128x128, .bf16⟩ : BufTy).Contents (Elt Ideal) :=
  truncf (F := Ideal) .bf16 (transpose S128x128 [1, 0] x3 transposes_S128x128_S128x128_1_0) bitsLt_bf16_f32

/-- The bias as the kernel stages it: laid out as one row. -/
def biasRow (x4 : (⟨S128, .f32⟩ : BufTy).Contents (Elt Ideal)) : (⟨S1x128, .f32⟩ : BufTy).Contents (Elt Ideal) :=
  shapeCast S1x128 x4 shapeCasts_S128_S1x128

variable (m : (ℓ : Loc nD τ sig) → Buf (Elt Ideal) ℓ)

/-- The features window's array is the aggregation of the three graph arguments. -/
theorem features_found (c : Dev nD) : V m c (Pipeline.arrRef spec0 0)
    = aggregated (m ((c : Thread nD τ).loc main_arg0)) (m ((c : Thread nD τ).loc main_arg1)) (m ((c : Thread nD τ).loc main_arg2)) := by
  show V m c main_v11 = _
  unfold V aggregated sourceIndex; after_results <;> rfl

/-- The weights window's array is the transposed weight matrix (through one change of format). -/
theorem weights_found (c : Dev nD) : V m c (Pipeline.arrRef spec0 1)
    = weightsT (m ((c : Thread nD τ).loc main_arg3)) := by
  show V m c main_v13 = _
  unfold V weightsT; after_results <;> rfl

/-- The bias window's array is the bias laid out as one row. -/
theorem bias_found (c : Dev nD) : V m c (Pipeline.arrRef spec0 2)
    = biasRow (m ((c : Thread nD τ).loc main_arg4)) := by
  show V m c main_v14 = _
  unfold V biasRow; after_results <;> rfl

end Cert.KernelIdeal.Found

end
-- ==== Proof.LibBcastInDim.lean ====
/-
  The host's `broadcast_in_dim` in the four arrangements a row-wise reference uses, read as functions of the
  index: a scalar to any shape; a length-b array to one row and then down a rows; a length-a array to a column;
  a column across b columns.
-/
import Idealize.ShloMosaic.Lib.Pipeline.Value
import Idealize.ShloMosaic.Lib.ValueLayout

namespace Cert.LibBcastInDim

open Idealize.ShloMosaic Idealize.ShloMosaic.ValueIdx

variable {α : Type}

/-- A scalar broadcast to any shape holds the scalar everywhere. -/
theorem bid_scalar {t : Shape} (x : (⟨0, ![]⟩ : Shape).Idx → α)
    (h : (⟨0, ![]⟩ : Shape).BroadcastsInDim t (![] : Fin 0 → Fin t.rank)) :
    broadcastInDim t ![] h x = fun _ => x ix0 := by
  funext j
  exact broadcastInDim_apply _ h x j ix0 (fun a => a.elim0)

/-- A length-b array placed as one row and broadcast down a rows holds, at (p, c), its entry c. -/
theorem bid_row {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) :
    broadcastInDim ⟨2, ![a, b]⟩ ![0, 1] h2 (broadcastInDim ⟨2, ![1, b]⟩ ![1] h1 v) = fun i => v (ix1 (i 1)) := by
  funext i
  have hlt : (i 1).val < b := (i 1).isLt
  refine (broadcastInDim_apply _ h2 _ i (ix2 (0 : Fin 1) (i 1)) fun ax => ?_).trans
    (broadcastInDim_apply _ h1 v (ix2 (0 : Fin 1) (i 1)) (ix1 (i 1)) fun ax => ?_)
  · match ax with
    | ⟨0, _⟩ => rfl
    | ⟨1, _⟩ =>
      show (i 1).val = if b = 1 then 0 else (i 1).val
      split
      · omega
      · rfl
  · match ax with
    | ⟨0, _⟩ =>
      show (i 1).val = if b = 1 then 0 else (i 1).val
      split
      · omega
      · rfl

/-- A length-a array placed as a column holds, at (r, u), its entry r. -/
theorem bid_col {a : ℕ} (v : (⟨1, ![a]⟩ : Shape).Idx → α)
    (h : (⟨1, ![a]⟩ : Shape).BroadcastsInDim ⟨2, ![a, 1]⟩ (![0] : Fin 1 → Fin 2)) :
    broadcastInDim ⟨2, ![a, 1]⟩ ![0] h v = fun i => v (ix1 (i 0)) := by
  funext i
  have hlt : (i 0).val < a := (i 0).isLt
  refine broadcastInDim_apply _ h v i (ix1 (i 0)) fun ax => ?_
  match ax with
  | ⟨0, _⟩ =>
    show (i 0).val = if a = 1 then 0 else (i 0).val
    split
    · omega
    · rfl

/-- A column broadcast across b columns holds, at (r, c), the column's entry r. -/
theorem bid_across {a b : ℕ} (v : (⟨2, ![a, 1]⟩ : Shape).Idx → α)
    (h : (⟨2, ![a, 1]⟩ : Shape).BroadcastsInDim ⟨2, ![a, b]⟩ (![0, 1] : Fin 2 → Fin 2)) :
    broadcastInDim ⟨2, ![a, b]⟩ ![0, 1] h v = fun i => v (ix2 (i 0) (0 : Fin 1)) := by
  funext i
  have hlt : (i 0).val < a := (i 0).isLt
  refine broadcastInDim_apply _ h v i (ix2 (i 0) (0 : Fin 1)) fun ax => ?_
  match ax with
  | ⟨0, _⟩ =>
    show (i 0).val = if a = 1 then 0 else (i 0).val
    split
    · omega
    · rfl
  | ⟨1, _⟩ => rfl

end Cert.LibBcastInDim
-- ==== Proof.RefSide.lean ====
/-
  The reference's result is the node update of its own aggregated features.

  After gathering and summing the messages into `agg`, the reference computes  max (agg · Wᵀ + b, 0)  with one
  whole matrix product against the transposed weights, the bias laid out as a row and repeated down all 100000
  rows, and a maximum against the zero array.  Read at (r, q) this is `entry (Σ_k agg (r, k) · Wᵀ (k, q)) (b q)`:
  the host's matrix product is the plain sum of products on the extended reals, the repeated bias row reads its
  entry in column q, and the zero array holds the zero word everywhere.
-/
import proofs.«116294_j61418032333373_2_alg».proof.Proof.Gen.ReferenceIdeal.Read
import proofs.«116294_j61418032333373_2_alg».proof.Proof.LibMatmul
import proofs.«116294_j61418032333373_2_alg».proof.Proof.LibBcastInDim
import proofs.«116294_j61418032333373_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.NodeUpdate

/-- The reference's last four operations, of ANY aggregated features `agg`, transposed weights `wt` and bias `b`:
    the node update. -/
theorem dense_eq (agg : FVec Ideal S100000x128 .f32) (wt : FVec Ideal S128x128 .f32) (b : FVec Ideal S128 .f32) :
    maximumf (addf (Host.dotGeneral dot_S100000x128_S128x128_S100000x128_1_0_0_1_n_n none agg wt)
        (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32))
      = nodeUpdate agg wt (fun q => b (ix1 q)) := by
  funext i
  obtain ⟨r, q, rfl⟩ : ∃ (r : Fin 100000) (q : Fin 128), i = ix2 r q := ⟨i 0, i 1, eq_ix2 i⟩
  have hm : Host.dotGeneral dot_S100000x128_S128x128_S100000x128_1_0_0_1_n_n none agg wt (ix2 r q)
      = ∑ k : Fin 128, agg (ix2 r k) * wt (ix2 k q) :=
    congrFun (Cert.LibMatmul.dotGeneral_eq dot_S100000x128_S128x128_S100000x128_1_0_0_1_n_n rfl rfl rfl rfl rfl rfl
      (φ₁ := .f32) (φ₂ := .f32) none _ agg wt) (ix2 r q)
  have hb : broadcastInDim S100000x128 ![0, 1] bcast_S1x128_S100000x128_0_1 (broadcastInDim S1x128 ![1] bcast_S128_S1x128_1 b) (ix2 r q)
      = b (ix1 q) :=
    congrFun (Cert.LibBcastInDim.bid_row b bcast_S128_S1x128_1 bcast_S1x128_S100000x128_0_1) (ix2 r q)
  have hz : broadcastInDim S100000x128 ![] bcast_S_S100000x128 (constant (F := Ideal) S_ .f32 0x00000000#32) (ix2 r q)
      = FloatOps.ofBits (F := Ideal) .f32 0x00000000#32 :=
    congrFun (Cert.LibBcastInDim.bid_scalar (constant (F := Ideal) S_ .f32 0x00000000#32) bcast_S_S100000x128) (ix2 r q)
  exact congrArg₂ (FloatOps.maximumf (F := Ideal) (φ := .f32)) (congrArg₂ (FloatOps.addf (F := Ideal) (φ := .f32)) hm hb) hz

/-- The reference's last stage, as the node update of its aggregation stage, its transposed-weights stage and
    its bias argument. -/
theorem result_eq (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal)) :
    val_main_v15 (F := Ideal) x0 x1 x2 x3 x4
      = nodeUpdate (val_main_v9 (F := Ideal) x0 x1 x2) (val_main_v10 (F := Ideal) x3) (fun q => x4 (ix1 q)) := by
  unfold val_main_v15 val_main_v14 val_main_v11 val_main_v13 val_main_v12 val_main_call0_v0 val_main_call0_cst
  generalize val_main_v9 (F := Ideal) x0 x1 x2 = agg
  generalize val_main_v10 (F := Ideal) x3 = wt
  exact dense_eq agg wt x4

end Cert.ReferenceIdeal.RefValue

end
-- ==== Proof.Bridge.lean ====
/-
  The two programs' spellings of the three arrays agree on the extended reals.

  The kernel's program gathers from the features changed to a narrower float format and changes the gathered
  rows back before summing them; the reference gathers the features themselves.  A gather only re-indexes its
  operand, and a change of format is the identity on the extended reals, so the two aggregations are one array.
  Both programs transpose the weight matrix with the same operation (the kernel's then changes format: the
  identity again), and the kernel's bias row, read in column q, is the bias' entry q.
-/
import proofs.«116294_j61418032333373_2_alg».proof.Proof.Found
import proofs.«116294_j61418032333373_2_alg».proof.Proof.RefSide
import Idealize.ShloMosaic.Lib.ValueLayout

noncomputable section

namespace Cert.Bridge

open Idealize.ShloMosaic Idealize.ShloMosaic.ValueIdx

/-- A gather between two changes of float format is the gather itself, on the extended reals. -/
theorem gather_through_formats {s si t : Shape} (d : GatherDims s si t) (x : FVec Ideal s .f32) (idx : IVec si 32)
    (h : FTy.bits .bf16 < FTy.bits .f32) :
    extf .f32 (Host.gather d (truncf .bf16 x h) idx) h = Host.gather d x idx := rfl

/-- The kernel's aggregation is the reference's. -/
theorem aggregated_eq (x0 : (⟨Cert.KernelIdeal.S100000x128, .f32⟩ : BufTy).Contents (Elt Ideal))
    (x1 x2 : (⟨Cert.KernelIdeal.S1600000, .i32⟩ : BufTy).Contents (Elt Ideal)) :
    Cert.KernelIdeal.Found.aggregated x0 x1 x2 = Cert.ReferenceIdeal.Read.val_main_v9 (F := Ideal) x0 x1 x2 := by
  unfold Cert.KernelIdeal.Found.aggregated Cert.KernelIdeal.Found.sourceIndex
  rw [gather_through_formats]
  unfold Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_c Cert.ReferenceIdeal.Read.val_main_c_0
    Cert.ReferenceIdeal.Read.val_main_cst
  rfl

/-- The kernel's weights array is the reference's transposed weights. -/
theorem weights_eq (x3 : (⟨Cert.KernelIdeal.S128x128, .f32⟩ : BufTy).Contents (Elt Ideal)) :
    Cert.KernelIdeal.Found.weightsT x3 = Cert.ReferenceIdeal.Read.val_main_v10 (F := Ideal) x3 := by
  unfold Cert.KernelIdeal.Found.weightsT Cert.ReferenceIdeal.Read.val_main_v10
  rfl

/-- The kernel's bias row in column q is the bias' entry q. -/
theorem bias_eq (x4 : (⟨Cert.KernelIdeal.S128, .f32⟩ : BufTy).Contents (Elt Ideal)) :
    (fun q : Fin 128 => Cert.KernelIdeal.Found.biasRow x4 (ix2 (0 : Fin 1) q)) = fun q : Fin 128 => x4 (ix1 q) :=
  funext fun q => shapeCast_a_1a_apply x4 _ 0 q

end Cert.Bridge

end
-- ==== Proof.lean ====
/-
  The kernel and its reference compute one function on the extended reals.

  Both programs first aggregate messages over the graph: along every edge the source node's 128 features are
  gathered, and the gathered rows are summed into the edge's destination node, giving `agg` (100000 × 128).
  Both then apply the node update  max (agg · Wᵀ + b, 0).

  The kernel differs from the reference in four ways, none of which changes a value on the extended reals:
    * it gathers from the features changed to a narrower float format and changes the rows back before summing
      (a change of format is the identity, and a gather only re-indexes);
    * it computes the update in ten blocks of 10000 rows, each a matrix product into a zero accumulator, where
      the reference takes one whole matrix product (both are, entry by entry, the same sum of 128 products);
    * it stages the bias as a 1 × 128 row repeated down a block, where the reference broadcasts it twice
      (both read the bias' entry in the entry's column);
    * it takes the maximum against a splat zero, the reference against a broadcast zero constant (one float word).
  No law used needs the inputs to be finite: sums are only re-indexed, never distributed over.

  The modules: Spec (the node update as one function), Body (the kernel body's stored value at an index),
  Blocks (from the ten blocks to the whole result array), Found (what the kernel's staged arrays hold when it
  starts), RefSide (the reference's last operations are the node update), Bridge (the two programs' spellings
  of the three arrays agree).  The frames are the generated ones; nothing was idealized, so `preserves` is trivial.
-/
import proofs.«116294_j61418032333373_2_alg».proof.Defs
import proofs.«116294_j61418032333373_2_alg».proof.Proof.Gen.Kernel
import proofs.«116294_j61418032333373_2_alg».proof.Proof.Gen.Kernel.Skeleton
import proofs.«116294_j61418032333373_2_alg».proof.Proof.Gen.Kernel.Launch
import proofs.«116294_j61418032333373_2_alg».proof.Proof.Gen.Kernel.Points
import proofs.«116294_j61418032333373_2_alg».proof.Proof.Gen.Kernel.Frame
import proofs.«116294_j61418032333373_2_alg».proof.Proof.Gen.KernelIdeal
import proofs.«116294_j61418032333373_2_alg».proof.Proof.Gen.KernelIdeal.Skeleton
import proofs.«116294_j61418032333373_2_alg».proof.Proof.Gen.KernelIdeal.Launch
import proofs.«116294_j61418032333373_2_alg».proof.Proof.Gen.KernelIdeal.Points
import proofs.«116294_j61418032333373_2_alg».proof.Proof.Gen.KernelIdeal.Frame
import proofs.«116294_j61418032333373_2_alg».proof.Proof.Gen.ReferenceIdeal
import proofs.«116294_j61418032333373_2_alg».proof.Proof.Gen.Pre_finite_inputs
import proofs.«116294_j61418032333373_2_alg».proof.Proof.Gen.KernelIdeal.Value
import proofs.«116294_j61418032333373_2_alg».proof.Proof.Gen.ReferenceIdeal.Run
import proofs.«116294_j61418032333373_2_alg».proof.Proof.Gen.ReferenceIdeal.Read
import proofs.«116294_j61418032333373_2_alg».proof.Proof.Blocks
import proofs.«116294_j61418032333373_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx Cert.NodeUpdate

/-- The common result, of the five argument arrays: the node update of the aggregated features (in the
    reference's spelling), the transposed weights and the bias. -/
def result (x0 : (⟨Cert.ReferenceIdeal.S100000x128, .f32⟩ : BufTy).Contents (Elt Ideal))
    (x1 x2 : (⟨Cert.ReferenceIdeal.S1600000, .i32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal)) :
    (⟨Cert.ReferenceIdeal.S100000x128, .f32⟩ : BufTy).Contents (Elt Ideal) :=
  nodeUpdate (Cert.ReferenceIdeal.Read.val_main_v9 (F := Ideal) x0 x1 x2) (Cert.ReferenceIdeal.Read.val_main_v10 (F := Ideal) x3)
    (fun q => x4 (ix1 q))

section Kernel

open Cert.KernelIdeal Cert.KernelIdeal.Gen

variable (m : (ℓ : Loc nD τ sig) → Buf (Elt Ideal) ℓ) (ρ : Dev nD → PrngReg)

/-- The node update of the arrays the kernel finds is the common result of the arguments. -/
theorem whole_eq (c : Dev nD) : Cert.KernelIdeal.Blocks.whole m c
    = result (m ((c : Thread nD τ).loc main_arg0)) (m ((c : Thread nD τ).loc main_arg1)) (m ((c : Thread nD τ).loc main_arg2))
        (m ((c : Thread nD τ).loc main_arg3)) (m ((c : Thread nD τ).loc main_arg4)) := by
  unfold Cert.KernelIdeal.Blocks.whole result
  exact congr
    (congrArg₂ nodeUpdate ((Cert.KernelIdeal.Found.features_found m c).trans (Cert.Bridge.aggregated_eq _ _ _))
      ((Cert.KernelIdeal.Found.weights_found m c).trans (Cert.Bridge.weights_eq _)))
    ((congrArg (fun (b : (⟨S1x128, .f32⟩ : BufTy).Contents (Elt Ideal)) => fun q : Fin 128 => b (ix2 (0 : Fin 1) q))
      (Cert.KernelIdeal.Found.bias_found m c)).trans (Cert.Bridge.bias_eq _))

/-- The kernel's run: its result array ends at the common result of its arguments, the arguments unchanged. -/
theorem kernel_run : θ_run defs (onTc (τ := τ) (main (F := Ideal))) ⟨m, fun _ => 0, ρ⟩ fun r => ∀ c : Dev nD,
      r.2.mem ((c : Thread nD τ).loc main_v15)
        = result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono
    (fun r h c => ⟨(h c).1.trans ((Cert.KernelIdeal.Blocks.result_array m c).trans (whole_eq m c)), (h c).2⟩)
    (Cert.KernelIdeal.Value.run_blocks m ρ)

end Kernel

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the common result of those arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, Cert.ReferenceIdeal.RefValue.result_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
